-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel

variable [Facts]

def fn {F : FTy → Type} [FloatOps F] (main_arg0 : FVec F S4x2048x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  main_v3
-- ==== Kernel.lean ====
abbrev S4x2048x128 : Shape := ⟨3, ![4, 2048, 128]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S1x1024x128 : Shape := ⟨3, ![1, 1024, 128]⟩
abbrev S1x2048x128 : Shape := ⟨3, ![1, 2048, 128]⟩
abbrev S1x1024x1 : Shape := ⟨3, ![1, 1024, 1]⟩
abbrev S1x1x2048 : Shape := ⟨3, ![1, 1, 2048]⟩
abbrev S1x1024x2048 : Shape := ⟨3, ![1, 1024, 2048]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x1x2048, .f32⟩
  | .hbm, ⟨6, _⟩ => ⟨S4x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x2048, .f32⟩
  | .local _ .vmem, ⟨9, _⟩ => ⟨S1x1024x2048, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1024x1_S1024x2048 : S1024x1.Broadcasts S1024x2048
  broadcasts_S1x2048_S1024x2048 : S1x2048.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x2048x128.size a
  hwx0_0 : ∀ i : grid0.Coords, EltTy.bits .f32 = 32 ∨ (Rect.block (s := S4x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x2048x1.size a
  hwx0_2 : ∀ i : grid0.Coords, EltTy.bits .f32 = 32 ∨ (Rect.block (s := S4x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S4x2048x2048.size a
  hwx0_4 : ∀ i : grid0.Coords, EltTy.bits .f32 = 32 ∨ (Rect.block (s := S4x2048x2048) S1x1024x2048.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S_, .f32⟩
  | .hbm, ⟨3, _⟩ => ⟨S4x2048, .f32⟩
  | .hbm, ⟨4, _⟩ => ⟨S4x2048x2048, .f32⟩
  | .hbm, ⟨5, _⟩ => ⟨S4x2048x1, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x128_S4x2048x128_S4x2048x2048_2_2_1_1_0_0_wf : DotDims.WF S4x2048x128 S4x2048x128 S4x2048x2048 [2] [2] [1] [1] [0] [0]

variable [Facts₀]

def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.LibSharedFrame.lean ====
/-
  A frame run for a one-region pipeline whose INPUT windows may read one and the same array.

  The pipeline library's frame run asks that the windows' arrays be pairwise distinct buffers, because it hands
  every window its array at the full share.  When a kernel is given one array through two input windows (here: a
  tile of rows and the whole matrix, both blocks of the same operand), the full share of that buffer has to be
  DEALT between the windows that read it.  The library's region theorem for shared arrays leaves exactly that
  dealing to the caller (`hsplit`); this file states the frame run on top of it:

  * the body's invariant is the core's scoped buffers that are no staging buffer, at some contents (`scopedRest`):
    what a body that keeps nothing between grid points may use and need not describe;
  * every unscoped buffer that is no window's array bypasses the region and is read back unchanged;
  * the conclusion is the library's `FramePost`: every window's array ends at `Dat.arrAt w N` (an input's entry
    contents; an output's entry contents overwritten by each block written back), every other unscoped buffer at
    its contents when the region was entered.

  Program-free: nothing here names a kernel.
-/
import Idealize.ShloMosaic.Lib.Pipeline.Frame

noncomputable section

namespace SharedArrayFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

include hinj hw in
/-- THE FRAME RUN when input windows share an array.  `hsplit` says how the buffers behind the windows' arrays, each
    whole at the full share at the region-entry contents `V`, make the proof data's arrays at entry — an array read
    through two windows split into the two halves of its share.  The body's invariant is the scoped rest (`hΦ`). -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedArrayFrame

end
-- ==== Proof.KernelFrame.lean ====
/-
  The frame of the distance-matrix kernel: it runs to the end, faults nowhere, and leaves its argument unchanged;
  and what its result array holds afterwards, block by block.

  @main first squares the argument x : [4, 2048, 128] and sums along the last axis (sq : [4, 2048]), lays sq out as
  a column [4, 2048, 1] and as a row [4, 1, 2048], and then runs ONE kernel region over the grid (b, i) ∈ 4 × 2.
  At the point (b, i) the region hands the body five blocks: rows i·1024 … i·1024 + 1023 of x[b] (window 0), ALL
  rows of x[b] (window 1), the matching 1024 entries of the column (window 2), the whole row of sq[b] (window 3),
  and the output tile [1, 1024, 2048] (window 4), which is written back at every point.

  Windows 0 and 1 are both blocks of the SAME array x.  Neither is ever written, so the region can hold x once and
  lend one half of its share to each window: that is the only thing in which this kernel differs from one whose
  windows sit on distinct arrays, and it is what `arrays_at_entry` below states.  The rest is the usual frame:
  the body loads four blocks, stores one tile that covers its buffer, and keeps nothing from point to point.
-/
import proofs.«149345_j15040975470940_2_alg».proof.Proof.Gen.Kernel.Launch
import proofs.«149345_j15040975470940_2_alg».proof.Proof.Gen.Kernel.Skeleton
import proofs.«149345_j15040975470940_2_alg».proof.Proof.Gen.Kernel.Points
import proofs.«149345_j15040975470940_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds x as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched (windows 1 and 3 at the odd points) the block index has not moved since the last fetch.
    One statement per input window, for any proof data whose array is the region's and whose body leaves the block
    in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile's buffer -/

abbrev rRows : Rect S1x1024x128 := Rect.unit (s := S1x1024x128) ![0, 0, 0] S1x1024x128.size inb_S1x1024x128_S1x1024x128_0_0_0
abbrev rAll : Rect S1x2048x128 := Rect.unit (s := S1x2048x128) ![0, 0, 0] S1x2048x128.size inb_S1x2048x128_S1x2048x128_0_0_0
abbrev rCol : Rect S1x1024x1 := Rect.unit (s := S1x1024x1) ![0, 0, 0] S1x1024x1.size inb_S1x1024x1_S1x1024x1_0_0_0
abbrev rRow : Rect S1x1x2048 := Rect.unit (s := S1x1x2048) ![0, 0, 0] S1x1x2048.size inb_S1x1x2048_S1x1x2048_0_0_0
abbrev rTile : Rect S1x1024x2048 := Rect.unit (s := S1x1024x2048) ![0, 0, 0] S1x1024x2048.size inb_S1x1024x2048_S1x1024x2048_0_0_0

/-- The output tile after the body, from the four input blocks: its one store, whose payload is the body's
    arithmetic of what the four loads read. -/
def tileOut (x0 : Vec F S1x1024x128 .f32) (x1 : Vec F S1x2048x128 .f32) (x2 : Vec F S1x1024x1 .f32) (x3 : Vec F S1x1x2048 .f32) : Vec F S1x1024x2048 .f32 :=
  View.canon [⟨rTile, k0_pay1 (View.ld x0 rRows) (View.ld x1 rAll) (View.ld x2 rCol) (View.ld x3 rRow)⟩]

/-- The one store covers the tile's buffer. -/
theorem tile_cover (p0 : Vec F S1x1024x2048 .f32) (y : S1x1024x2048.Idx) :
    ∃ pc ∈ ([⟨rTile, p0⟩] : List (View.Piece (Elt F) S1x1024x2048 .f32)), y ∈ pc.1.set :=
  View.cover_of_tiled [⟨rTile, p0⟩] S1x1024x2048.size (by rfl) y

/-! ## The body's triple -/

set_option maxHeartbeats 1000000 in
/-- The body on whole staging memrefs, the inputs' at contents `x0 … x3` and the output's at anything, runs to its
    end holding the inputs' as they were and the output's at `tileOut` of them. -/
theorem sound_kernel (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x1024x1 .f32) (harg4 : arg4.IsWhole) (arg5 : Memref sig .tc .vmem S1x1x2048 .f32) (harg5 : arg5.IsWhole)
    (arg6 : Memref sig .tc .vmem S1x1024x2048 .f32) (harg6 : arg6.IsWhole)
    (x0 : Vec F S1x1024x128 .f32) (x1 : Vec F S1x2048x128 .f32) (x2 : Vec F S1x1024x1 .f32) (x3 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__edm_kernel i arg2 harg2 arg3 harg3 arg4 harg4 arg5 harg5 arg6 harg6) K := by
  simp only [cc0__edm_kernel_eq_skeleton]; unfold cc0__edm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The proof data -/

/-- The proof data of the region on core `c`: the arrays as the region finds them; after the body at point `t` each
    input's buffer at its block and the output's at `tileOut` of the four blocks; the invariant the scoped rest;
    nothing owed; the array x lent by halves to the two windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = tileOut (iblk m c 0 t) (iblk m c 1 t) (iblk m c 2 t) (iblk m c 3 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The array x dealt between the two windows that read it -/

/-- The buffers behind the windows' arrays are x, the column, the row and the result. -/
theorem arr_refs : Finset.univ.image (Pipeline.arrRef spec0) = [main_arg0, main_v2, main_v3, main_v4].toFinset := by decide

/-- Those four buffers, each whole at the full share, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)) :=
  bigSep_eq_bigSepL_of_eq [main_arg0, main_v2, main_v3, main_v4] arr_refs (by decide) _

/-- At the region's entry: x held whole is x held at the left half of its share by window 0 and at the right half
    by window 1; the column, the row and the result are each one window's, whole. -/
theorem arrays_at_entry (c : Dev nD) :
    (Pipeline.arrBufs spec0 c (V m c) : sProp 𝕄) ⊢ (dats m 0 c).arrays ((dats m 0 c).arrAt · 0) := by
  rw [arrBufs_eq]
  unfold Dat.arrays
  rw [bigSep_W0]
  have s0 : (dats m 0 c).share 0 = fullShare.left := rfl
  have s1 : (dats m 0 c).share 1 = fullShare.right := rfl
  have s2 : (dats m 0 c).share 2 = fullShare := rfl
  have s3 : (dats m 0 c).share 3 = fullShare := rfl
  have s4 : (dats m 0 c).share 4 = fullShare := rfl
  rw [s0, s1, s2, s3, s4]
  simp only [View.set_whole]
  iintro ⟨Hx, H2, H3, H4⟩
  ihave Hx := (pointsTo_share (PosShare.mem_left_op_right fullShare)).1 $$ Hx
  icases Hx with ⟨Hl, Hr⟩
  isplitl [Hl]; · iexact Hl
  isplitl [Hr]; · iexact Hr
  isplitl [H2]; · iexact H2
  isplitl [H3]; · iexact H3
  iexact H4

/-! ## The run and the frame -/

set_option backward.isDefEq.respectTransparency.types false in
/-- Every weakly fair execution of @main terminates without a fault; afterwards every window's array holds what the
    pipeline library computes from the proof data, and every other unscoped buffer what the region found there. -/
theorem run_main : θ_run defs (onTc (τ := τ) (main (F := F))) (s₀ m ρ) (Pipeline.FramePost cfgs (dats m) 0 (V m)) :=
  SharedArrayFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_at_entry m) (hΦ := fun _ _ => rfl)

/-- The same run, read at the result and at the argument: the result array is the entry contents overwritten by the
    eight tiles written back, and x is what it was (an input window's array is never written). -/
theorem run_tiles : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)) :=
  (θ_run defs _ _).mono (fun _ h c => ⟨(h c).1 4,
      ((h c).1 0).trans (((dats m 0 c).arrAt_in 0 rfl _).trans ((A_eq m c 0).trans (V_main_arg0 m c)))⟩) (run_main m ρ)

/-- THE FRAME: the program runs and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_tiles m ρ)

end Cert.Kernel.Tile

end
-- ==== Proof.KernelIdealFrame.lean ====
/-
  The frame of the distance-matrix kernel: it runs to the end, faults nowhere, and leaves its argument unchanged;
  and what its result array holds afterwards, block by block.

  @main first squares the argument x : [4, 2048, 128] and sums along the last axis (sq : [4, 2048]), lays sq out as
  a column [4, 2048, 1] and as a row [4, 1, 2048], and then runs ONE kernel region over the grid (b, i) ∈ 4 × 2.
  At the point (b, i) the region hands the body five blocks: rows i·1024 … i·1024 + 1023 of x[b] (window 0), ALL
  rows of x[b] (window 1), the matching 1024 entries of the column (window 2), the whole row of sq[b] (window 3),
  and the output tile [1, 1024, 2048] (window 4), which is written back at every point.

  Windows 0 and 1 are both blocks of the SAME array x.  Neither is ever written, so the region can hold x once and
  lend one half of its share to each window: that is the only thing in which this kernel differs from one whose
  windows sit on distinct arrays, and it is what `arrays_at_entry` below states.  The rest is the usual frame:
  the body loads four blocks, stores one tile that covers its buffer, and keeps nothing from point to point.
-/
import proofs.«149345_j15040975470940_2_alg».proof.Proof.Gen.KernelIdeal.Launch
import proofs.«149345_j15040975470940_2_alg».proof.Proof.Gen.KernelIdeal.Skeleton
import proofs.«149345_j15040975470940_2_alg».proof.Proof.Gen.KernelIdeal.Points
import proofs.«149345_j15040975470940_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds x as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched (windows 1 and 3 at the odd points) the block index has not moved since the last fetch.
    One statement per input window, for any proof data whose array is the region's and whose body leaves the block
    in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile's buffer -/

abbrev rRows : Rect S1x1024x128 := Rect.unit (s := S1x1024x128) ![0, 0, 0] S1x1024x128.size inb_S1x1024x128_S1x1024x128_0_0_0
abbrev rAll : Rect S1x2048x128 := Rect.unit (s := S1x2048x128) ![0, 0, 0] S1x2048x128.size inb_S1x2048x128_S1x2048x128_0_0_0
abbrev rCol : Rect S1x1024x1 := Rect.unit (s := S1x1024x1) ![0, 0, 0] S1x1024x1.size inb_S1x1024x1_S1x1024x1_0_0_0
abbrev rRow : Rect S1x1x2048 := Rect.unit (s := S1x1x2048) ![0, 0, 0] S1x1x2048.size inb_S1x1x2048_S1x1x2048_0_0_0
abbrev rTile : Rect S1x1024x2048 := Rect.unit (s := S1x1024x2048) ![0, 0, 0] S1x1024x2048.size inb_S1x1024x2048_S1x1024x2048_0_0_0

/-- The output tile after the body, from the four input blocks: its one store, whose payload is the body's
    arithmetic of what the four loads read. -/
def tileOut (x0 : Vec F S1x1024x128 .f32) (x1 : Vec F S1x2048x128 .f32) (x2 : Vec F S1x1024x1 .f32) (x3 : Vec F S1x1x2048 .f32) : Vec F S1x1024x2048 .f32 :=
  View.canon [⟨rTile, k0_pay1 (View.ld x0 rRows) (View.ld x1 rAll) (View.ld x2 rCol) (View.ld x3 rRow)⟩]

/-- The one store covers the tile's buffer. -/
theorem tile_cover (p0 : Vec F S1x1024x2048 .f32) (y : S1x1024x2048.Idx) :
    ∃ pc ∈ ([⟨rTile, p0⟩] : List (View.Piece (Elt F) S1x1024x2048 .f32)), y ∈ pc.1.set :=
  View.cover_of_tiled [⟨rTile, p0⟩] S1x1024x2048.size (by rfl) y

/-! ## The body's triple -/

set_option maxHeartbeats 1000000 in
/-- The body on whole staging memrefs, the inputs' at contents `x0 … x3` and the output's at anything, runs to its
    end holding the inputs' as they were and the output's at `tileOut` of them. -/
theorem sound_kernel (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x1024x1 .f32) (harg4 : arg4.IsWhole) (arg5 : Memref sig .tc .vmem S1x1x2048 .f32) (harg5 : arg5.IsWhole)
    (arg6 : Memref sig .tc .vmem S1x1024x2048 .f32) (harg6 : arg6.IsWhole)
    (x0 : Vec F S1x1024x128 .f32) (x1 : Vec F S1x2048x128 .f32) (x2 : Vec F S1x1024x1 .f32) (x3 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__edm_kernel i arg2 harg2 arg3 harg3 arg4 harg4 arg5 harg5 arg6 harg6) K := by
  simp only [cc0__edm_kernel_eq_skeleton]; unfold cc0__edm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The proof data -/

/-- The proof data of the region on core `c`: the arrays as the region finds them; after the body at point `t` each
    input's buffer at its block and the output's at `tileOut` of the four blocks; the invariant the scoped rest;
    nothing owed; the array x lent by halves to the two windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = tileOut (iblk m c 0 t) (iblk m c 1 t) (iblk m c 2 t) (iblk m c 3 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The array x dealt between the two windows that read it -/

/-- The buffers behind the windows' arrays are x, the column, the row and the result. -/
theorem arr_refs : Finset.univ.image (Pipeline.arrRef spec0) = [main_arg0, main_v2, main_v3, main_v4].toFinset := by decide

/-- Those four buffers, each whole at the full share, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)) :=
  bigSep_eq_bigSepL_of_eq [main_arg0, main_v2, main_v3, main_v4] arr_refs (by decide) _

/-- At the region's entry: x held whole is x held at the left half of its share by window 0 and at the right half
    by window 1; the column, the row and the result are each one window's, whole. -/
theorem arrays_at_entry (c : Dev nD) :
    (Pipeline.arrBufs spec0 c (V m c) : sProp 𝕄) ⊢ (dats m 0 c).arrays ((dats m 0 c).arrAt · 0) := by
  rw [arrBufs_eq]
  unfold Dat.arrays
  rw [bigSep_W0]
  have s0 : (dats m 0 c).share 0 = fullShare.left := rfl
  have s1 : (dats m 0 c).share 1 = fullShare.right := rfl
  have s2 : (dats m 0 c).share 2 = fullShare := rfl
  have s3 : (dats m 0 c).share 3 = fullShare := rfl
  have s4 : (dats m 0 c).share 4 = fullShare := rfl
  rw [s0, s1, s2, s3, s4]
  simp only [View.set_whole]
  iintro ⟨Hx, H2, H3, H4⟩
  ihave Hx := (pointsTo_share (PosShare.mem_left_op_right fullShare)).1 $$ Hx
  icases Hx with ⟨Hl, Hr⟩
  isplitl [Hl]; · iexact Hl
  isplitl [Hr]; · iexact Hr
  isplitl [H2]; · iexact H2
  isplitl [H3]; · iexact H3
  iexact H4

/-! ## The run and the frame -/

set_option backward.isDefEq.respectTransparency.types false in
/-- Every weakly fair execution of @main terminates without a fault; afterwards every window's array holds what the
    pipeline library computes from the proof data, and every other unscoped buffer what the region found there. -/
theorem run_main : θ_run defs (onTc (τ := τ) (main (F := F))) (s₀ m ρ) (Pipeline.FramePost cfgs (dats m) 0 (V m)) :=
  SharedArrayFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_at_entry m) (hΦ := fun _ _ => rfl)

/-- The same run, read at the result and at the argument: the result array is the entry contents overwritten by the
    eight tiles written back, and x is what it was (an input window's array is never written). -/
theorem run_tiles : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)) :=
  (θ_run defs _ _).mono (fun _ h c => ⟨(h c).1 4,
      ((h c).1 0).trans (((dats m 0 c).arrAt_in 0 rfl _).trans ((A_eq m c 0).trans (V_main_arg0 m c)))⟩) (run_main m ρ)

/-- THE FRAME: the program runs and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_tiles m ρ)

end Cert.KernelIdeal.Tile

end
-- ==== Proof.DistSpec.lean ====
/-
  The Euclidean distance matrix, entry by entry, over the extended reals.

  For x : [4, 2048, 128] the result D : [4, 2048, 2048] has

      D[b, n, n'] = sqrt( max( (|x[b,n]|² + |x[b,n']|²) − 2 · ⟨x[b,n], x[b,n']⟩ , 0 ) + ε )

  with |x[b,n]|² = 0 + Σ_k x[b,n,k]·x[b,n,k] (a sum started from the zero word, as a float reduction is),
  ⟨x[b,n], x[b,n']⟩ = Σ_k x[b,n,k]·x[b,n',k], and the three float literals kept as their words: 2.0 is 0x40000000,
  0.0 is 0x00000000 and ε (the f32 nearest 1e-7) is 0x33D6BF95.  Both programs compute exactly this expression tree,
  so no law of the extended reals beyond "a product into a zero accumulator is the plain sum" is needed, and no
  finiteness of the inputs either.

  Program-free: this file names no kernel.
-/
import Idealize.ShloMosaic.PureOps.Ideal
import Idealize.ShloMosaic.Lib.ValueIdx

noncomputable section

namespace EuclidDist

open Idealize.ShloMosaic Idealize.ShloMosaic.ValueIdx

/-- The argument's shape and the result's. -/
abbrev SX : Shape := ⟨3, ![4, 2048, 128]⟩
abbrev SD : Shape := ⟨3, ![4, 2048, 2048]⟩

/-- The squared norm of row `n` of batch `b`: the zero word plus the sum of the squares along the last axis. -/
def sqNorm (x : SX.Idx → EReal) (b : Fin 4) (n : Fin 2048) : EReal :=
  Ideal.ofBits .f32 0x00000000#32 + ∑ k : Fin 128, x (ix3 b n k) * x (ix3 b n k)

/-- The inner product of rows `n` and `n'` of batch `b`. -/
def inner (x : SX.Idx → EReal) (b : Fin 4) (n n' : Fin 2048) : EReal :=
  ∑ k : Fin 128, x (ix3 b n k) * x (ix3 b n' k)

/-- One entry from the two squared norms and the inner product: clamp the squared distance at zero, add ε, take the root. -/
def entry (sn sn' ip : EReal) : EReal :=
  Ideal.sqrt (max (sn + sn' - Ideal.ofBits .f32 0x40000000#32 * ip) (Ideal.ofBits .f32 0x00000000#32) + Ideal.ofBits .f32 0x33D6BF95#32)

/-- The entry at batch `b`, rows `n` and `n'`. -/
def distAt (x : SX.Idx → EReal) (b : Fin 4) (n n' : Fin 2048) : EReal :=
  entry (sqNorm x b n) (sqNorm x b n') (inner x b n n')

/-- The whole distance matrix. -/
def dist (x : SX.Idx → EReal) : SD.Idx → EReal := fun i => distAt x (i 0) (i 1) (i 2)

theorem dist_ix3 (x : SX.Idx → EReal) (b : Fin 4) (n n' : Fin 2048) : dist x (ix3 b n n') = distAt x b n n' := rfl

end EuclidDist

end
-- ==== Proof.TileValue.lean ====
/-
  The body's arithmetic at one entry of the output tile, over the extended reals.

  The body holds four blocks: a tile of rows X : [1, 1024, 128], all rows Y : [1, 2048, 128], the rows' squared norms
  as a column c : [1, 1024, 1] and all squared norms as a row r : [1, 1, 2048].  It drops the leading unit axes,
  multiplies X by Y contracting the LAST axis of both (so the product's (p, q) entry is Σ_k X[p,k]·Y[q,k]) into the
  zero splat, spreads the column along the columns and the row down the rows, and computes entrywise
  sqrt(max((c[p] + r[q]) − 2·(X·Yᵀ)[p,q], 0) + ε); the tile gets its unit axis back.  Read at (0, p, q) that is
  `EuclidDist.entry (c[p]) (r[q]) (Σ_k X[p,k]·Y[q,k])`.
-/
import proofs.«149345_j15040975470940_2_alg».proof.Proof.Gen.KernelIdeal.Skeleton
import proofs.«149345_j15040975470940_2_alg».proof.Proof.DistSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-- The product's dimension numbers: rows × last axis against rows × last axis. -/
abbrev dims := dot_S1024x128_S2048x128_S1024x2048_1_1_0_0_n_n

/-- At output (p, q) the left operand is read in row p, -/
theorem lhs_row (j : S1024x2048.Idx) (κ : dims.contr.Idx) : (dims.lhsIdx j κ 0).val = (j 0).val := by
  unfold DotDims.lhsIdx
  rw [dif_neg (show ¬(0 : Fin S1024x128.rank) ∈ dims.lhsBatch by decide), dif_pos (show (0 : Fin S1024x128.rank) ∈ dims.lhsNonContracting by decide)]
  rfl
/-- at the contraction's position; -/
theorem lhs_pos (j : S1024x2048.Idx) (κ : dims.contr.Idx) : (dims.lhsIdx j κ 1).val = (κ ⟨0, by decide⟩).val :=
  dims.lhsIdx_val_of_single rfl j κ
/-- the right operand in row q, -/
theorem rhs_row (j : S1024x2048.Idx) (κ : dims.contr.Idx) : (dims.rhsIdx j κ 0).val = (j 1).val := by
  unfold DotDims.rhsIdx
  rw [dif_neg (show ¬(0 : Fin S2048x128.rank) ∈ dims.rhsBatch by decide), dif_pos (show (0 : Fin S2048x128.rank) ∈ dims.rhsNonContracting by decide)]
  rfl
/-- at the contraction's position. -/
theorem rhs_pos (j : S1024x2048.Idx) (κ : dims.contr.Idx) : (dims.rhsIdx j κ 1).val = (κ ⟨0, by decide⟩).val :=
  dims.rhsIdx_val_of_single rfl j κ

/-- The product into the zero splat at (p, q): the sum over k of X[p,k]·Y[q,k]. -/
theorem product_apply (X : FVec Ideal S1024x128 .f32) (Y : FVec Ideal S2048x128 .f32) (p : Fin 1024) (q : Fin 2048) :
    matmul dims (some .fp32) X Y (constant (F := Ideal) S1024x2048 .f32 0x00000000#32) (ix2 p q)
      = ∑ k : Fin 128, X (ix2 p k) * Y (ix2 q k) := by
  show FloatOps.matmul dims (some .fp32) X Y (constant (F := Ideal) S1024x2048 .f32 0x00000000#32) (ix2 p q) = _
  rw [Ideal.matmul_constant_zero_apply, ← Equiv.sum_comp (ValueIdx.contrEquiv1 dims 128 rfl rfl).symm]
  refine Finset.sum_congr rfl fun k _ => ?_
  have hk := ValueIdx.contrEquiv1_symm_val dims 128 rfl rfl k
  have el : dims.lhsIdx (ix2 p q) ((ValueIdx.contrEquiv1 dims 128 rfl rfl).symm k) = ix2 p k := funext fun a => Fin.ext (by
    match a with
    | ⟨0, _⟩ => exact lhs_row _ _
    | ⟨1, _⟩ => exact (lhs_pos _ _).trans hk)
  have er : dims.rhsIdx (ix2 p q) ((ValueIdx.contrEquiv1 dims 128 rfl rfl).symm k) = ix2 q k := funext fun a => Fin.ext (by
    match a with
    | ⟨0, _⟩ => exact rhs_row _ _
    | ⟨1, _⟩ => exact (rhs_pos _ _).trans hk)
  rw [el, er]

/-- A column [a, 1] spread along b columns reads, at (p, q), the column's entry p. -/
theorem spread_column {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- THE TILE'S ENTRY (0, p, q): the distance entry of the column's p, the row's q and the rows' inner product. -/
theorem payload_apply (x0 : Vec Ideal S1x1024x128 .f32) (x1 : Vec Ideal S1x2048x128 .f32) (x2 : Vec Ideal S1x1024x1 .f32)
    (x3 : Vec Ideal S1x1x2048 .f32) (p : Fin 1024) (q : Fin 2048) :
    k0_pay1 (F := Ideal) x0 x1 x2 x3 (ix3 (0 : Fin 1) p q)
      = EuclidDist.entry (x2 (ix3 (0 : Fin 1) p (0 : Fin 1))) (x3 (ix3 (0 : Fin 1) (0 : Fin 1) q))
          (∑ k : Fin 128, x0 (ix3 (0 : Fin 1) p k) * x1 (ix3 (0 : Fin 1) q k)) := by
  unfold k0_pay1
  refine (shapeCast_ab_1ab_apply _ shapeCasts_S1024x2048_S1x1024x2048 (0 : Fin 1) p q).trans ?_
  show Ideal.sqrt (max ((broadcastTo S1024x2048 (shapeCast S1024x1 x2 shapeCasts_S1x1024x1_S1024x1) broadcasts_S1024x1_S1024x2048 (ix2 p q)
        + broadcastTo S1024x2048 (shapeCast S1x2048 x3 shapeCasts_S1x1x2048_S1x2048) broadcasts_S1x2048_S1024x2048 (ix2 p q))
      - Ideal.ofBits .f32 0x40000000#32 * matmul dims (some .fp32) (shapeCast S1024x128 x0 shapeCasts_S1x1024x128_S1024x128)
          (shapeCast S2048x128 x1 shapeCasts_S1x2048x128_S2048x128) (constant (F := Ideal) S1024x2048 .f32 0x00000000#32) (ix2 p q))
      (Ideal.ofBits .f32 0x00000000#32) + Ideal.ofBits .f32 0x33D6BF95#32) = _
  rw [product_apply, spread_column, broadcastTo_1b_ab_apply, shapeCast_1ab_ab_apply, shapeCast_1ab_ab_apply]
  unfold EuclidDist.entry
  refine congrArg (fun s => Ideal.sqrt (max ((x2 (ix3 (0 : Fin 1) p (0 : Fin 1)) + x3 (ix3 (0 : Fin 1) (0 : Fin 1) q))
      - Ideal.ofBits .f32 0x40000000#32 * s) (Ideal.ofBits .f32 0x00000000#32) + Ideal.ofBits .f32 0x33D6BF95#32)) ?_
  exact Finset.sum_congr rfl fun k _ => by rw [shapeCast_1ab_ab_apply, shapeCast_1ab_ab_apply]

end Cert.KernelIdeal.TileValue

end
-- ==== Proof.NormStages.lean ====
/-
  The two layouts of the squared row norms that BOTH programs compute on the host before anything else: the sums
  of squares sq : [4, 2048], spread as a column [4, 2048, 1] and as a row [4, 1, 2048].  Read at an index, the
  column's entry (b, n, 0) and the row's entry (b, 0, n) are the squared norm of row n of batch b.
-/
import proofs.«149345_j15040975470940_2_alg».proof.Proof.Gen.ReferenceIdeal.Read
import proofs.«149345_j15040975470940_2_alg».proof.Proof.DistSpec

noncomputable section

namespace Cert.ReferenceIdeal.NormStages

open Cert.ReferenceIdeal Cert.ReferenceIdeal.Read Idealize.ShloMosaic Idealize.ShloMosaic.ValueIdx

theorem idx_of_col (b : Fin 4) (n : Fin 2048) (k : Fin 128) : idx_main_v1 (idx_main_v3 (ix3 b n (0 : Fin 1))) k = ix3 b n k :=
  funext fun a => Fin.ext (by match a with | ⟨0, _⟩ => rfl | ⟨1, _⟩ => rfl | ⟨2, _⟩ => rfl)

theorem idx_of_row (b : Fin 4) (n : Fin 2048) (k : Fin 128) : idx_main_v1 (idx_main_v4 (ix3 b (0 : Fin 1) n)) k = ix3 b n k :=
  funext fun a => Fin.ext (by match a with | ⟨0, _⟩ => rfl | ⟨1, _⟩ => rfl | ⟨2, _⟩ => rfl)

/-- The column's entry (b, n, 0) is the squared norm of row n of batch b. -/
theorem col_apply (x : (⟨S4x2048x128, .f32⟩ : BufTy).Contents (Elt Ideal)) (b : Fin 4) (n : Fin 2048) :
    val_main_v3 (F := Ideal) x (ix3 b n (0 : Fin 1)) = EuclidDist.sqNorm x b n := by
  rw [val_main_v3_apply, val_main_v1_apply]
  simp only [idx_of_col, val_main_v0_apply, val_main_cst_apply, Ideal.mulf_def, Ideal.ofBits_def]
  rfl

/-- The row's entry (b, 0, n) is the squared norm of row n of batch b. -/
theorem row_apply (x : (⟨S4x2048x128, .f32⟩ : BufTy).Contents (Elt Ideal)) (b : Fin 4) (n : Fin 2048) :
    val_main_v4 (F := Ideal) x (ix3 b (0 : Fin 1) n) = EuclidDist.sqNorm x b n := by
  rw [val_main_v4_apply, val_main_v1_apply]
  simp only [idx_of_row, val_main_v0_apply, val_main_cst_apply, Ideal.mulf_def, Ideal.ofBits_def]
  rfl

end Cert.ReferenceIdeal.NormStages

end
-- ==== Proof.KernelValue.lean ====
/-
  The kernel's result array after the run is the distance matrix of its argument.

  The eight grid points (b, i) ∈ 4 × 2 each write back one tile [1, 1024, 2048]: rows i·1024 … i·1024 + 1023 of
  batch b, all 2048 columns.  The tiles partition the result.  At the point (b, i) the four input blocks are, entry
  by entry, x[b, i·1024 + p, k] (the tile of rows), x[b, q, k] (all rows), the squared norm of row i·1024 + p (the
  column) and the squared norm of row q (the row); so the tile's entry (0, p, q) is the distance entry
  (b, i·1024 + p, q), and the array that ends up in memory is the distance matrix.
-/
import proofs.«149345_j15040975470940_2_alg».proof.Proof.KernelIdealFrame
import proofs.«149345_j15040975470940_2_alg».proof.Proof.TileValue
import proofs.«149345_j15040975470940_2_alg».proof.Proof.NormStages
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The index maps over the grid -/

/-- The printed index maps, decided over the eight points: the row tile, the column and the output move together;
    the full-matrix and the row windows follow the batch only; no window moves along its last axis; the output's
    block indices range over 4 × 2. -/
theorem index_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 3 ∧ win0_4.index t (1 : Fin 3) ≤ 1 ∧ win0_4.index t (2 : Fin 3) = 0 :=
  (by decide +kernel : ∀ t : Fin grid0.N, _)

/-- Every (batch, row half) is some point's. -/
theorem index_onto : ∀ (b : Fin 4) (h : Fin 2), ∃ t : Fin cfg0.N, win0_4.index t = ![b.val, h.val, 0] :=
  (by decide +kernel : ∀ (b : Fin 4) (h : Fin 2), ∃ t : Fin grid0.N, win0_4.index t = ![b.val, h.val, 0])

/-- The batch the point `t` works on, -/
def batchOf (t : Fin cfg0.N) : Fin 4 := ⟨win0_4.index t (0 : Fin 3), by have := (index_facts t).2.2.2.2.2.2.2.2.2.2.2.2.1; omega⟩
/-- and the row of the result its tile's row `p` is. -/
def rowOf (t : Fin cfg0.N) (p : Fin 1024) : Fin 2048 :=
  ⟨win0_4.index t (1 : Fin 3) * 1024 + p.val, by have := (index_facts t).2.2.2.2.2.2.2.2.2.2.2.2.2.1; have := p.isLt; omega⟩

/-! ## The four input blocks, entry by entry -/

/-- The tile of rows: entry (0, p, k) is x[batch, row p of the tile, k]. -/
theorem rows_read (c : Dev nD) (t : Fin cfg0.N) (p : Fin 1024) (k : Fin 128) :
    iblk m c 0 t (ix3 (0 : Fin 1) p k) = m ((c : Thread nD τ).loc main_arg0) (ix3 (batchOf t) (rowOf t p) k) := by
  show V m c main_arg0 (((cfg0.win 0).blk t).view.emb (ix3 (0 : Fin 1) p k)) = _
  rw [V_main_arg0]
  refine congrArg (m ((c : Thread nD τ).loc main_arg0)) (funext fun a => Fin.ext ?_)
  obtain ⟨e00, e01, e02, -⟩ := index_facts t
  match a with
  | ⟨0, _⟩ => show win0_0.index t (0 : Fin 3) * 1 + 1 * 0 = win0_4.index t (0 : Fin 3); omega
  | ⟨1, _⟩ => show win0_0.index t (1 : Fin 3) * 1024 + 1 * p.val = win0_4.index t (1 : Fin 3) * 1024 + p.val; omega
  | ⟨2, _⟩ => show win0_0.index t (2 : Fin 3) * 128 + 1 * k.val = k.val; omega

/-- All rows: entry (0, q, k) is x[batch, q, k]. -/
theorem all_read (c : Dev nD) (t : Fin cfg0.N) (q : Fin 2048) (k : Fin 128) :
    iblk m c 1 t (ix3 (0 : Fin 1) q k) = m ((c : Thread nD τ).loc main_arg0) (ix3 (batchOf t) q k) := by
  show V m c main_arg0 (((cfg0.win 1).blk t).view.emb (ix3 (0 : Fin 1) q k)) = _
  rw [V_main_arg0]
  refine congrArg (m ((c : Thread nD τ).loc main_arg0)) (funext fun a => Fin.ext ?_)
  obtain ⟨-, -, -, e10, e11, e12, -⟩ := index_facts t
  match a with
  | ⟨0, _⟩ => show win0_1.index t (0 : Fin 3) * 1 + 1 * 0 = win0_4.index t (0 : Fin 3); omega
  | ⟨1, _⟩ => show win0_1.index t (1 : Fin 3) * 2048 + 1 * q.val = q.val; omega
  | ⟨2, _⟩ => show win0_1.index t (2 : Fin 3) * 128 + 1 * k.val = k.val; omega

/-- The column block: entry (0, p, 0) is the column's entry (batch, row p of the tile, 0). -/
theorem col_read (c : Dev nD) (t : Fin cfg0.N) (p : Fin 1024) :
    iblk m c 2 t (ix3 (0 : Fin 1) p (0 : Fin 1)) = V m c main_v2 (ix3 (batchOf t) (rowOf t p) (0 : Fin 1)) := by
  show V m c main_v2 (((cfg0.win 2).blk t).view.emb (ix3 (0 : Fin 1) p (0 : Fin 1))) = _
  refine congrArg (V m c main_v2) (funext fun a => Fin.ext ?_)
  obtain ⟨-, -, -, -, -, -, e20, e21, e22, -⟩ := index_facts t
  match a with
  | ⟨0, _⟩ => show win0_2.index t (0 : Fin 3) * 1 + 1 * 0 = win0_4.index t (0 : Fin 3); omega
  | ⟨1, _⟩ => show win0_2.index t (1 : Fin 3) * 1024 + 1 * p.val = win0_4.index t (1 : Fin 3) * 1024 + p.val; omega
  | ⟨2, _⟩ => show win0_2.index t (2 : Fin 3) * 1 + 1 * 0 = 0; omega

/-- The row block: entry (0, 0, q) is the row's entry (batch, 0, q). -/
theorem row_read (c : Dev nD) (t : Fin cfg0.N) (q : Fin 2048) :
    iblk m c 3 t (ix3 (0 : Fin 1) (0 : Fin 1) q) = V m c main_v3 (ix3 (batchOf t) (0 : Fin 1) q) := by
  show V m c main_v3 (((cfg0.win 3).blk t).view.emb (ix3 (0 : Fin 1) (0 : Fin 1) q)) = _
  refine congrArg (V m c main_v3) (funext fun a => Fin.ext ?_)
  obtain ⟨-, -, -, -, -, -, -, -, -, e30, e31, e32, -⟩ := index_facts t
  match a with
  | ⟨0, _⟩ => show win0_3.index t (0 : Fin 3) * 1 + 1 * 0 = win0_4.index t (0 : Fin 3); omega
  | ⟨1, _⟩ => show win0_3.index t (1 : Fin 3) * 1 + 1 * 0 = 0; omega
  | ⟨2, _⟩ => show win0_3.index t (2 : Fin 3) * 2048 + 1 * q.val = q.val; omega

/-! ## The column and the row as the region finds them -/

/-- The host operations leave the squared norms' column in `main_v2` … -/
theorem V_col (c : Dev nD) :
    (V m c main_v2 : S4x2048x1.Idx → Elt Ideal .f32) = Cert.ReferenceIdeal.Read.val_main_v3 (F := Ideal) (m ((c : Thread nD τ).loc main_arg0)) := by
  dsimp only [V, hostOps0]; after_results; rfl

/-- … and their row in `main_v3`. -/
theorem V_row (c : Dev nD) :
    (V m c main_v3 : S4x1x2048.Idx → Elt Ideal .f32) = Cert.ReferenceIdeal.Read.val_main_v4 (F := Ideal) (m ((c : Thread nD τ).loc main_arg0)) := by
  dsimp only [V, hostOps0]; after_results; rfl

/-! ## What a point writes back -/

theorem zero3 : (![0, 0, 0] : Fin 3 → Nat) = fun _ => 0 := funext fun a => by fin_cases a <;> rfl

/-- WHAT POINT `t` WRITES BACK is block `t` of the distance matrix of the argument. -/
theorem flushed_eq (c : Dev nD) (t : Fin cfg0.N) :
    (dats m 0 c).flushed 4 t = ((cfg0.win 4).blk t).view.read (Elt Ideal) (EuclidDist.dist (m ((c : Thread nD τ).loc main_arg0))) := by
  show (cfg0.win 4).cut (grid0.coords t) ((dats m 0 c).after 4 t) = _
  rw [after4]
  unfold tileOut
  rw [View.canon_unit_zero zero3]
  simp only [View.ld_unit_zero (S := S1x1024x128) zero3, View.ld_unit_zero (S := S1x2048x128) zero3,
    View.ld_unit_zero (S := S1x1024x1) zero3, View.ld_unit_zero (S := S1x1x2048) zero3]
  funext j
  obtain ⟨u, p, q, rfl⟩ : ∃ (u : Fin 1) (p : Fin 1024) (q : Fin 2048), j = ix3 u p q := ⟨j 0, j 1, j 2, eq_ix3 j⟩
  obtain rfl : u = 0 := Subsingleton.elim _ _
  refine (TileValue.payload_apply (iblk m c 0 t) (iblk m c 1 t) (iblk m c 2 t) (iblk m c 3 t) p q).trans ?_
  have hemb : ((cfg0.win 4).blk t).view.emb (ix3 (0 : Fin 1) p q) = ix3 (batchOf t) (rowOf t p) q := by
    funext a; apply Fin.ext
    obtain ⟨-, -, -, -, -, -, -, -, -, -, -, -, -, -, e42⟩ := index_facts t
    match a with
    | ⟨0, _⟩ => show win0_4.index t (0 : Fin 3) * 1 + 1 * 0 = win0_4.index t (0 : Fin 3); omega
    | ⟨1, _⟩ => show win0_4.index t (1 : Fin 3) * 1024 + 1 * p.val = win0_4.index t (1 : Fin 3) * 1024 + p.val; omega
    | ⟨2, _⟩ => show win0_4.index t (2 : Fin 3) * 2048 + 1 * q.val = q.val; omega
  show _ = EuclidDist.dist (m ((c : Thread nD τ).loc main_arg0)) (((cfg0.win 4).blk t).view.emb (ix3 (0 : Fin 1) p q))
  rw [hemb, EuclidDist.dist_ix3, col_read, row_read, V_col, V_row, Cert.ReferenceIdeal.NormStages.col_apply,
    Cert.ReferenceIdeal.NormStages.row_apply]
  unfold EuclidDist.distAt EuclidDist.inner
  refine congrArg (EuclidDist.entry _ _) (Finset.sum_congr rfl fun k _ => ?_)
  rw [rows_read, all_read]

/-! ## The tiles cover the result -/

/-- An index of the result is in point `t`'s tile iff each coordinate is in the tile's range on its axis. -/
theorem mem_tile (t : Fin cfg0.N) (i : S4x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v4).slice (win0_4.rect t)).set ↔ _
  rw [View.set_slice_whole, Rect.mem_set_unit]
  exact Iff.rfl

/-- Every index of the result is in the tile of the point whose batch is its batch and whose row half holds its row. -/
theorem tiles_cover (i : S4x2048x2048.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 2048 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-! ## The result array, and the run read at it -/

/-- THE RESULT after the run is the distance matrix of the argument. -/
theorem result_eq (c : Dev nD) : (dats m 0 c).arrAt 4 cfg0.N = EuclidDist.dist (m ((c : Thread nD τ).loc main_arg0)) :=
  (dats m 0 c).arrAt_eq_of_cover 4 (EuclidDist.dist (m ((c : Thread nD τ).loc main_arg0))) (fun t _ => flushed_eq m c t) tiles_cover

/-- Every weakly fair execution of the kernel's program terminates without a fault, with the result array at the
    distance matrix of the argument and the argument unchanged. -/
theorem run : θ_run defs (onTc (τ := τ) (main (F := Ideal))) ⟨m, fun _ => 0, ρ⟩ (fun r => ∀ c : Dev nD,
      r.2.mem ((c.tc : Thread nD τ).loc main_v4) = EuclidDist.dist (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_eq m c), (h c).2⟩) (run_tiles m ρ)

end Cert.KernelIdeal.Whole

end
-- ==== Proof.RefIsDist.lean ====
/-
  The reference computes the distance matrix of `DistSpec`: its twenty host operations, read one at a time at an
  index (b, n, n'), are the zero-started sum of squares of rows n and n' (each broadcast from [4, 2048] through a
  column or a row to the full [4, 2048, 2048]), the batched product of x with itself contracted along the last axis,
  and then, entry by entry, subtract twice the product, clamp at zero, add ε, take the root.
-/
import proofs.«149345_j15040975470940_2_alg».proof.Proof.Gen.ReferenceIdeal.Read
import proofs.«149345_j15040975470940_2_alg».proof.Proof.DistSpec

noncomputable section

namespace Cert.ReferenceIdeal.Bridge

open Cert.ReferenceIdeal Cert.ReferenceIdeal.Read Idealize.ShloMosaic Idealize.ShloMosaic.ValueIdx

/-- Row n of batch b, entry k, as the row-norm chain reaches it from (b, n, n') through the column. -/
theorem idx_col (b : Fin 4) (n n' : Fin 2048) (k : Fin 128) :
    idx_main_v1 (idx_main_v3 (idx_main_v5 (ix3 b n n'))) k = ix3 b n k :=
  funext fun a => Fin.ext (by match a with | ⟨0, _⟩ => rfl | ⟨1, _⟩ => rfl | ⟨2, _⟩ => rfl)

/-- Row n' of batch b, entry k, as the row-norm chain reaches it from (b, n, n') through the row. -/
theorem idx_row (b : Fin 4) (n n' : Fin 2048) (k : Fin 128) :
    idx_main_v1 (idx_main_v4 (idx_main_v6 (ix3 b n n'))) k = ix3 b n' k :=
  funext fun a => Fin.ext (by match a with | ⟨0, _⟩ => rfl | ⟨1, _⟩ => rfl | ⟨2, _⟩ => rfl)

/-- The product's left factor at (b, n, n'), k is x[b, n, k]; -/
theorem idx_lhs (b : Fin 4) (n n' : Fin 2048) (k : Fin 128) : lidx_main_v2 (ix3 b n n') k = ix3 b n k :=
  funext fun a => Fin.ext (by match a with | ⟨0, _⟩ => rfl | ⟨1, _⟩ => rfl | ⟨2, _⟩ => rfl)

/-- its right factor is x[b, n', k]. -/
theorem idx_rhs (b : Fin 4) (n n' : Fin 2048) (k : Fin 128) : ridx_main_v2 (ix3 b n n') k = ix3 b n' k :=
  funext fun a => Fin.ext (by match a with | ⟨0, _⟩ => rfl | ⟨1, _⟩ => rfl | ⟨2, _⟩ => rfl)

/-- THE REFERENCE IS THE DISTANCE MATRIX. -/
theorem ref_is_dist (x : (⟨S4x2048x128, .f32⟩ : BufTy).Contents (Elt Ideal)) :
    val_main_v15 (F := Ideal) x = EuclidDist.dist x := by
  funext i
  obtain ⟨b, n, n', rfl⟩ : ∃ (b : Fin 4) (n n' : Fin 2048), i = ix3 b n n' := ⟨i 0, i 1, i 2, eq_ix3 i⟩
  rw [EuclidDist.dist_ix3, val_main_v15_apply, val_main_v14_apply, val_main_v13_apply, val_main_cst_2_apply, val_main_v12_apply,
    val_main_v11_apply, val_main_cst_1_apply, val_main_v10_apply, val_main_v9_apply, val_main_v8_apply, val_main_cst_0_apply,
    val_main_v7_apply, val_main_v6_apply, val_main_v5_apply, val_main_v4_apply, val_main_v3_apply, val_main_v2_apply,
    val_main_v1_apply, val_main_v1_apply]
  simp only [idx_col, idx_row, idx_lhs, idx_rhs, val_main_v0_apply, val_main_cst_apply, Ideal.mulf_def, Ideal.addf_def,
    Ideal.subf_def, Ideal.maximumf_def, Ideal.hostUnary_sqrt_def, Ideal.ofBits_def]
  rfl

end Cert.ReferenceIdeal.Bridge

end
-- ==== Proof.lean ====
/-
  The kernel computes the Euclidean distance matrix of its argument, and so does the reference.

  Both programs take x : [4, 2048, 128] and return D : [4, 2048, 2048] with
  D[b, n, n'] = sqrt(max((|x[b,n]|² + |x[b,n']|²) − 2·⟨x[b,n], x[b,n']⟩, 0) + ε).  The reference does it in twenty host
  operations on whole arrays.  The kernel's program computes the squared norms on the host, lays them out as a column
  and as a row, and then runs one region over a 4 × 2 grid whose body multiplies a tile of 1024 rows of x[b] by all
  of x[b] on the matrix unit (contracting the last axis of both, into a zero accumulator) and finishes the entries of
  one [1024, 2048] tile; the eight tiles partition D.

  Over the extended reals the two are the same expression tree entry by entry (`EuclidDist.dist`): a product into
  a zero accumulator is the plain sum, a float sum is the zero word plus the sum, the three literals are the same
  words on both sides.  No finiteness of x is used.

  The frames: the kernel's region reads x through two windows (a row tile and the whole matrix), so x is held at half
  its share by each; nothing writes x.  The reference is host operations only.  The ideal pass rewrote nothing, so
  the idealized kernel is the kernel's own text read over the extended reals.
-/
import proofs.«149345_j15040975470940_2_alg».proof.Defs
import proofs.«149345_j15040975470940_2_alg».proof.Proof.Gen.Kernel
import proofs.«149345_j15040975470940_2_alg».proof.Proof.Gen.KernelIdeal
import proofs.«149345_j15040975470940_2_alg».proof.Proof.Gen.ReferenceIdeal
import proofs.«149345_j15040975470940_2_alg».proof.Proof.Gen.Pre_finite_inputs
import proofs.«149345_j15040975470940_2_alg».proof.Proof.Gen.ReferenceIdeal.Read
import proofs.«149345_j15040975470940_2_alg».proof.Proof.KernelFrame
import proofs.«149345_j15040975470940_2_alg».proof.Proof.KernelValue
import proofs.«149345_j15040975470940_2_alg».proof.Proof.RefIsDist
import Idealize.ShloMosaic.Adequacy
import Idealize.ShloMosaic.Init

noncomputable section

namespace Cert.Proof

open Idealize.ShloMosaic Idealize.ShloMosaic.TcCoe Idealize.SL.Sem

/-- The kernel's program as printed, at the word level: it runs and leaves x unchanged. -/
theorem frame_kernel : Cert.frame_Kernel := fun m ρ _ => Cert.Kernel.Tile.frame m ρ

/-- The same program read over the extended reals. -/
theorem frame_kernel_ideal : Cert.frame_KernelIdeal := fun m ρ _ => Cert.KernelIdeal.Tile.frame m ρ

/-- The reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories that agree on x, both programs end with the distance matrix of x in their result. -/
theorem algebraic : Cert.algebraic_KernelIdeal_ReferenceIdeal := by
  intro m ρ m' ρ' _ hagree
  refine ⟨fun c => EuclidDist.dist (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v15_eq, Cert.ReferenceIdeal.Bridge.ref_is_dist, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
